-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S100000x512 .f32) (main_arg1 : IVec S2x3200000 32) (main_arg2 : FVec F S512x16 .f32) (main_arg3 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S100000x16 : Shape := ⟨2, ![100000, 16]⟩
abbrev S2000x512 : Shape := ⟨2, ![2000, 512]⟩
abbrev S2000x16 : Shape := ⟨2, ![2000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S10000x16 : Shape := ⟨2, ![10000, 16]⟩
abbrev S10000 : Shape := ⟨1, ![10000]⟩
abbrev S10000x1 : Shape := ⟨2, ![10000, 1]⟩

abbrev nBuf : Space → Nat
  | .hbm => 63
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S100000x16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x16, .f32⟩
  | .hbm, ⟨54, _⟩ => ⟨S3300000x1, .f32⟩
  | .hbm, ⟨55, _⟩ => ⟨S3300000x16, .f32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S1x16, .f32⟩
  | .hbm, ⟨62, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  dot_S2000x512_S512x16_S2000x16_1_0_0_1_n_n_wf : DotDims.WF S2000x512 S512x16 S2000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S100000x16 : Shape := ⟨2, ![100000, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S100000x16, .f32⟩
  | .hbm, ⟨5, _⟩ => ⟨S1x3200000, .i32⟩
  | .hbm, ⟨6, _⟩ => ⟨S3200000, .i32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x16, .f32⟩
  | .hbm, ⟨54, _⟩ => ⟨S3300000x1, .f32⟩
  | .hbm, ⟨55, _⟩ => ⟨S3300000x16, .f32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S1x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S_, .f32⟩
  | .hbm, ⟨77, _⟩ => ⟨S100000, .f32⟩
  | .hbm, ⟨78, _⟩ => ⟨S100000x1, .f32⟩
  | .hbm, ⟨79, _⟩ => ⟨S100000x1, .f32⟩
  | .hbm, ⟨80, _⟩ => ⟨S100000x16, .f32⟩
  | .hbm, ⟨81, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_call2_cst : Ref sig .tc := ⟨.hbm, 67, rfl⟩
abbrev main_call2_v0 : Ref sig .tc := ⟨.hbm, 68, rfl⟩
abbrev main_call2_cst_0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_v48 : Ref sig .tc := ⟨.hbm, 81, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Aggregate.lean ====
/-
  The neighbourhood aggregation between the projection and the final activation, as ONE function of the projected
  features `h` and the edge list `e`: self-loops appended to the edge list, the in-degree of every node by a
  scatter-add of ones, its inverse square root where positive, the per-edge weight as the product of the two
  endpoints' values, the source rows gathered and scaled, and the scaled rows scatter-added to their destinations.
  Both programs apply exactly this composition of host operations; it is stated once in each program's vocabulary
  (the two vocabularies spell the same shapes and dimension records), the two statements are one function, and
  nothing below opens it.
-/
import proofs.«107143_j66365834658260_2_alg».proof.Proof.Gen.KernelIdeal
import proofs.«107143_j66365834658260_2_alg».proof.Proof.Gen.ReferenceIdeal

set_option maxRecDepth 16384

noncomputable section

namespace Cert.KernelIdeal

open Idealize.ShloMosaic Cert.KernelIdeal.Gen

variable {F : FTy → Type} [FloatOps F]

/-- The aggregation over the kernel program's shapes and records. -/
def aggregate (h : (⟨S100000x16, .f32⟩ : BufTy).Contents (Elt F)) (e : (⟨S2x3200000, .i32⟩ : BufTy).Contents (Elt F)) :
    (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (mulf (Host.gather gather_S100000x16_S3300000x1_S3300000x16_1_0_n_n_0_1_116 h (broadcastInDim S3300000x1 ![0] bcast_S3300000_S3300000x1_0 (select (cmpi .slt (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0))))))))

end Cert.KernelIdeal

namespace Cert.ReferenceIdeal

open Idealize.ShloMosaic Cert.ReferenceIdeal.Gen

variable {F : FTy → Type} [FloatOps F]

/-- The aggregation over the reference program's shapes and records. -/
def aggregate (h : (⟨S100000x16, .f32⟩ : BufTy).Contents (Elt F)) (e : (⟨S2x3200000, .i32⟩ : BufTy).Contents (Elt F)) :
    (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (mulf (Host.gather gather_S100000x16_S3300000x1_S3300000x16_1_0_n_n_0_1_116 h (broadcastInDim S3300000x1 ![0] bcast_S3300000_S3300000x1_0 (select (cmpi .slt (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0)))) (Host.gather gather_S100000_S3300000x1_S3300000_n_0_n_n_0_1_1 (select (cmpf (F := F) .ogt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32))) (broadcastInDim S100000 ![] bcast_S_S100000 (constant S_ .f32 0x00000000#32))) (Host.rsqrt (Host.scatterAdd scatter_S100000_S3300000x1_S3300000_n_0_0_1 (broadcastInDim S100000 ![] bcast_S_S100000 (constant S_ .f32 0x00000000#32)) (broadcastInDim S3300000x1 ![0] bcast_S3300000_S3300000x1_0 (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0)) (broadcastInDim S3300000 ![] bcast_S_S3300000 (constant S_ .f32 0x3F800000#32)))) (broadcastInDim S100000 ![] bcast_S_S100000 (id (constant S_ .f32 0x00000000#32)))) (broadcastInDim S3300000x1 ![0] bcast_S3300000_S3300000x1_0 (select (cmpi .slt (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 0#32))) (addi (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0) (broadcastInDim S3300000 ![] bcast_S_S3300000 (constantI S_ 32 100000#32))) (concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0))))))))

/-- The two statements are one function. -/
theorem aggregate_eq (h : (⟨S100000x16, .f32⟩ : BufTy).Contents (Elt F)) (e : (⟨S2x3200000, .i32⟩ : BufTy).Contents (Elt F)) :
    Cert.KernelIdeal.aggregate (F := F) h e = aggregate (F := F) h e := rfl

end Cert.ReferenceIdeal

namespace Cert.KernelIdeal

open Idealize.ShloMosaic Cert.KernelIdeal.Gen

variable {F : FTy → Type} [FloatOps F]

/-- The source end of every edge, the node's own number appended for its self-loop. -/
def srcNodes (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destination end of every edge, the node's own number appended for its self-loop. -/
def dstNodes (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- The in-degree of every node: a one scatter-added at each edge's destination. -/
def degree (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32))

/-- Where the degree is positive. -/
def degreePositive (dst : (⟨S3300000, .i32⟩ : BufTy).Contents (Elt F)) : (⟨S100000, .i1⟩ : BufTy).Contents (Elt F) :=
  cmpf (F := F) .ogt (degree (F := F) dst) (broadcastInDim S100000 ![] bcast_S_S100000 (constant S_ .f32 0x00000000#32))

/-- The inverse square root of the degree where it is positive, zero elsewhere. -/
def invSqrtDegree (dst : (⟨S3300000, .i32⟩ : BufTy).Contents (Elt F)) : (⟨S100000, .f32⟩ : BufTy).Contents (Elt F) :=
  select (degreePositive (F := F) dst) (Host.rsqrt (degree (F := F) dst)) (broadcastInDim S100000 ![] bcast_S_S100000 (id (constant S_ .f32 0x00000000#32)))

/-- The source rows of `h` gathered per edge, scaled by the two ends' weights, and scatter-added at the destinations. -/
def scatterScaled (h : (⟨S100000x16, .f32⟩ : BufTy).Contents (Elt F)) (src dst : (⟨S3300000, .i32⟩ : BufTy).Contents (Elt F)) (dinv : (⟨S100000, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 dst) (mulf (Host.gather gather_S100000x16_S3300000x1_S3300000x16_1_0_n_n_0_1_116 h (broadcastInDim S3300000x1 ![0] bcast_S3300000_S3300000x1_0 (select (cmpi .slt src (broadcastInDim S3300000 ![] bcast_S_S3300000 (constantI S_ 32 0#32))) (addi src (broadcastInDim S3300000 ![] bcast_S_S3300000 (constantI S_ 32 100000#32))) src))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 dinv (broadcastInDim S3300000x1 ![0] bcast_S3300000_S3300000x1_0 (select (cmpi .slt src (broadcastInDim S3300000 ![] bcast_S_S3300000 (constantI S_ 32 0#32))) (addi src (broadcastInDim S3300000 ![] bcast_S_S3300000 (constantI S_ 32 100000#32))) src))) (Host.gather gather_S100000_S3300000x1_S3300000_n_0_n_n_0_1_1 dinv (broadcastInDim S3300000x1 ![0] bcast_S3300000_S3300000x1_0 (select (cmpi .slt dst (broadcastInDim S3300000 ![] bcast_S_S3300000 (constantI S_ 32 0#32))) (addi dst (broadcastInDim S3300000 ![] bcast_S_S3300000 (constantI S_ 32 100000#32))) dst)))))))

/-- The aggregation as the composition of its stages. -/
theorem aggregate_eq_stages (h : (⟨S100000x16, .f32⟩ : BufTy).Contents (Elt F)) (e : (⟨S2x3200000, .i32⟩ : BufTy).Contents (Elt F)) :
    aggregate (F := F) h e = scatterScaled (F := F) h (srcNodes (F := F) e) (dstNodes (F := F) e) (invSqrtDegree (F := F) (dstNodes (F := F) e)) := rfl

end Cert.KernelIdeal

namespace Cert.ReferenceIdeal

open Idealize.ShloMosaic Cert.ReferenceIdeal.Gen

variable {F : FTy → Type} [FloatOps F]

/-- The source end of every edge, the node's own number appended for its self-loop. -/
def srcNodes (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destination end of every edge, the node's own number appended for its self-loop. -/
def dstNodes (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- The in-degree of every node: a one scatter-added at each edge's destination. -/
def degree (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 dst) (broadcastInDim S3300000 ![] bcast_S_S3300000 (constant S_ .f32 0x3F800000#32))

/-- Where the degree is positive. -/
def degreePositive (dst : (⟨S3300000, .i32⟩ : BufTy).Contents (Elt F)) : (⟨S100000, .i1⟩ : BufTy).Contents (Elt F) :=
  cmpf (F := F) .ogt (degree (F := F) dst) (broadcastInDim S100000 ![] bcast_S_S100000 (constant S_ .f32 0x00000000#32))

/-- The inverse square root of the degree where it is positive, zero elsewhere. -/
def invSqrtDegree (dst : (⟨S3300000, .i32⟩ : BufTy).Contents (Elt F)) : (⟨S100000, .f32⟩ : BufTy).Contents (Elt F) :=
  select (degreePositive (F := F) dst) (Host.rsqrt (degree (F := F) dst)) (broadcastInDim S100000 ![] bcast_S_S100000 (id (constant S_ .f32 0x00000000#32)))

/-- The source rows of `h` gathered per edge, scaled by the two ends' weights, and scatter-added at the destinations. -/
def scatterScaled (h : (⟨S100000x16, .f32⟩ : BufTy).Contents (Elt F)) (src dst : (⟨S3300000, .i32⟩ : BufTy).Contents (Elt F)) (dinv : (⟨S100000, .f32⟩ : BufTy).Contents (Elt F)) : (⟨S100000x16, .f32⟩ : BufTy).Contents (Elt F) :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 dst) (mulf (Host.gather gather_S100000x16_S3300000x1_S3300000x16_1_0_n_n_0_1_116 h (broadcastInDim S3300000x1 ![0] bcast_S3300000_S3300000x1_0 (select (cmpi .slt src (broadcastInDim S3300000 ![] bcast_S_S3300000 (constantI S_ 32 0#32))) (addi src (broadcastInDim S3300000 ![] bcast_S_S3300000 (constantI S_ 32 100000#32))) src))) (broadcastInDim S3300000x16 ![0, 1] bcast_S3300000x1_S3300000x16_0_1 (broadcastInDim S3300000x1 ![0] bcast_S3300000_S3300000x1_0 (mulf (Host.gather gather_S100000_S3300000x1_S3300000_n_0_n_n_0_1_1 dinv (broadcastInDim S3300000x1 ![0] bcast_S3300000_S3300000x1_0 (select (cmpi .slt src (broadcastInDim S3300000 ![] bcast_S_S3300000 (constantI S_ 32 0#32))) (addi src (broadcastInDim S3300000 ![] bcast_S_S3300000 (constantI S_ 32 100000#32))) src))) (Host.gather gather_S100000_S3300000x1_S3300000_n_0_n_n_0_1_1 dinv (broadcastInDim S3300000x1 ![0] bcast_S3300000_S3300000x1_0 (select (cmpi .slt dst (broadcastInDim S3300000 ![] bcast_S_S3300000 (constantI S_ 32 0#32))) (addi dst (broadcastInDim S3300000 ![] bcast_S_S3300000 (constantI S_ 32 100000#32))) dst)))))))

/-- The aggregation as the composition of its stages. -/
theorem aggregate_eq_stages (h : (⟨S100000x16, .f32⟩ : BufTy).Contents (Elt F)) (e : (⟨S2x3200000, .i32⟩ : BufTy).Contents (Elt F)) :
    aggregate (F := F) h e = scatterScaled (F := F) h (srcNodes (F := F) e) (dstNodes (F := F) e) (invSqrtDegree (F := F) (dstNodes (F := F) e)) := rfl

end Cert.ReferenceIdeal

end
-- ==== Proof.LibJoinedResults.lean ====
/-
  A host concatenation of two arrays, printed as one binary operation whose function builds the list of its two
  operands, read back through a fold of host operations.

  The operands sit inside the list's dependent pairs, where a simplifier pass over the fold's result lemmas does not
  descend; naming the concatenation of two arrays as a function of the two arrays (`join2`) puts them back in argument
  position, so that one pass rewrites the whole fold, the operands of every two-array concatenation included. The
  name unfolds to the concatenation by definition.
-/
import Idealize.ShloMosaic.Lib.StableHlo.Run

namespace Idealize.ShloMosaic

variable {α : Type}

/-- The concatenation of two arrays along an axis, as a function of the two arrays. -/
def join2 (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A two-array concatenation is `join2` of its arrays. -/
theorem concatenate_pair_eq_join2 (t : Shape) (a : Fin t.rank) (s₁ s₂ : Shape) (h : Shape.Concatenates [s₁, s₂] t a)
    (x : s₁.Idx → α) (y : s₂.Idx → α) : concatenate t a [⟨s₁, x⟩, ⟨s₂, y⟩] h = join2 t a s₁ s₂ h x y := rfl

namespace StableHlo

/-- The contents of one buffer after a literal list of host operations, as ONE simplifier pass over the operations'
    result lemmas, two-array concatenations named `join2` so that their operands are rewritten too. -/
macro "after_results_joined" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair_eq_join2]))

end StableHlo

end Idealize.ShloMosaic
-- ==== Proof.LibAfterAppend.lean ====
/-
  The buffer contents after a list of host operations is a fold over the list, so after a concatenation it is the
  second list's fold from the first list's result. With it a long straight-line program is read stretch by stretch.
-/
import Idealize.ShloMosaic.Lib.StableHlo.Run

noncomputable section

namespace Cert.AfterAppend

open Idealize.ShloMosaic Idealize.ShloMosaic.StableHlo

/-- The contents after `l₁ ++ l₂` from `V` are the contents after `l₂` from the contents after `l₁` from `V`. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => rw [List.cons_append, after_cons, after_cons, ih]

end Cert.AfterAppend

end
-- ==== Proof.LibTypedRefs.lean ====
/-
  Typed buffer references: the two transports between a value's type and its buffer's type cancel.

  A module-local function's operations are stated at the type of the tensor value (`T.Contents`), and moved to the
  buffer's own contents type along the reference's type equation, `toBuf`, and back, `ofBuf`. When a fold over such
  operations is read back, every intermediate value comes wrapped `x.ofBuf (x.toBuf v)`; the wrapper is the identity,
  for any typed reference `x` whatever its buffer. A value that crosses between such a function and the caller is
  wrapped once only (`x.ofBuf v` or `x.toBuf v` at a literal buffer whose type IS the value's); those go by unfolding
  the two transports to `cast` and core's `cast_eq`. So
      simp only [Cert.TypedRefs.ofBuf_toBuf, Cert.TypedRefs.toBuf_ofBuf, TRef.ofBuf, TRef.toBuf, cast_eq]
  leaves the plain term of the operations, which a closing `rfl` can then meet; with the wrappers still in place a
  `rfl` has to see through one cast per intermediate value and does not come back on a long function.
-/
import Idealize.ShloMosaic.Lib.StableHlo

namespace Cert.TypedRefs

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  unfold TRef.ofBuf TRef.toBuf
  rw [cast_cast]
  exact cast_eq _ _

/-- Buffer contents moved to the value's type and back are the buffer contents. -/
theorem toBuf_ofBuf (x : TRef sig T) (v : x.ref.ty.Contents Val) : x.toBuf (x.ofBuf v) = v := by
  unfold TRef.ofBuf TRef.toBuf
  rw [cast_cast]
  exact cast_eq _ _

end Cert.TypedRefs
-- ==== Proof.RefHost.lean ====
/-
  The reference program's run, read back stretch by stretch.

  Its @main is one straight line of 78 host operations: the matrix product; the same three stretches the kernel
  program has between its regions (edge ends and degree; the inlined selection; gather, scale, scatter-add); then the
  bias added to every row, the clamp at zero, and the inlined log-softmax. The buffer contents after a concatenation
  of lists are the second list's fold from the first's, so each stretch is read from arbitrary contents `W` at the few
  buffers the next one needs, and the readings compose. The result is `finish` (bias, clamp, log-softmax as host
  operations) of the shared aggregation of the host's matrix product.
-/
import proofs.«107143_j66365834658260_2_alg».proof.Proof.RefRun
import proofs.«107143_j66365834658260_2_alg».proof.Proof.Aggregate
import proofs.«107143_j66365834658260_2_alg».proof.Proof.LibJoinedResults
import proofs.«107143_j66365834658260_2_alg».proof.Proof.LibAfterAppend
import proofs.«107143_j66365834658260_2_alg».proof.Proof.LibTypedRefs
import Idealize.ShloMosaic.PureOps.Ideal

set_option maxRecDepth 16384

noncomputable section

namespace Cert.ReferenceIdeal

open Idealize.ShloMosaic Cert.ReferenceIdeal.Gen

variable {F : FTy → Type} [FloatOps F]

/-- The bias laid out as a row and added to every row, as the host computes it. -/
def biasedRows (a : (⟨S100000x16, .f32⟩ : BufTy).Contents (Elt F)) (b : (⟨S16, .f32⟩ : BufTy).Contents (Elt F)) : (⟨S100000x16, .f32⟩ : BufTy).Contents (Elt F) :=
  addf a (broadcastInDim S100000x16 ![0, 1] bcast_S1x16_S100000x16_0_1 (broadcastInDim S1x16 ![1] bcast_S16_S1x16_1 b))

/-- Every entry clamped below at zero, as the host computes it. -/
def clampAtZero (z : (⟨S100000x16, .f32⟩ : BufTy).Contents (Elt F)) : (⟨S100000x16, .f32⟩ : BufTy).Contents (Elt F) :=
  maximumf z (broadcastInDim S100000x16 ![] bcast_S_S100000x16 (constant S_ .f32 0x00000000#32))

/-- Every row plus the bias, clamped below at zero. -/
def clampedRows (a : (⟨S100000x16, .f32⟩ : BufTy).Contents (Elt F)) (b : (⟨S16, .f32⟩ : BufTy).Contents (Elt F)) : (⟨S100000x16, .f32⟩ : BufTy).Contents (Elt F) :=
  clampAtZero (F := F) (biasedRows (F := F) a b)

/-- The log-softmax of every row, as the host computes it. -/
def logSoftmaxRows (z : (⟨S100000x16, .f32⟩ : BufTy).Contents (Elt F)) : (⟨S100000x16, .f32⟩ : BufTy).Contents (Elt F) :=
  subf (subf z (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x16_S100000_d1 h_S_))))) (broadcastInDim S100000x16 ![0, 1] bcast_S100000x1_S100000x16_0_1 (Host.log (broadcastInDim S100000x1 ![0] bcast_S100000_S100000x1_0 (Host.reduceAdd (Host.exp (subf z (broadcastInDim S100000x16 ![0, 1] bcast_S100000x1_S100000x16_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x16_S100000_d1 h_S_)))))) (constant S_ .f32 0x00000000#32) reducesTo_S100000x16_S100000_d1 h_S_))))

/-- Bias, clamp, log-softmax. -/
def finish (a : (⟨S100000x16, .f32⟩ : BufTy).Contents (Elt F)) (b : (⟨S16, .f32⟩ : BufTy).Contents (Elt F)) : (⟨S100000x16, .f32⟩ : BufTy).Contents (Elt F) :=
  logSoftmaxRows (F := F) (clampedRows (F := F) a b)

end Cert.ReferenceIdeal

namespace Cert.ReferenceIdeal.HostStretches

open Cert.ReferenceIdeal Cert.ReferenceIdeal.Gen Cert.ReferenceIdeal.ValueP
open Idealize.ShloMosaic Idealize.ShloMosaic.TcCoe Idealize.SL.Sem Idealize.ShloMosaic.StableHlo

section Lists

variable {F : FTy → Type} [FloatOps F]

/-- The matrix product. -/
abbrev opsProduct : List (HloOp τ sig (Elt F)) :=
  [ binary main_arg0 main_arg2 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- Edge ends, degree, where it is positive, its inverse square root. -/
abbrev opsDegree : List (HloOp τ sig (Elt F)) :=
  [ unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    unary main_arg1 main_v3 ((extractStridedSlice S1x3200000 ![1, 0] · slices_S2x3200000_S1x3200000_1_0) : (⟨S2x3200000, .i32⟩ : BufTy).Contents (Elt F) → (⟨S1x3200000, .i32⟩ : BufTy).Contents (Elt F)),
    reshape main_v3 main_v4 rfl shapeCasts_S1x3200000_S3200000,
    nullary main_v5 (iotaInDim S100000 32 0),
    binary main_v2 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v4 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- The inlined selection. -/
abbrev opsSelect : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Gather, scale, scatter-add. -/
abbrev opsScatter : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v0 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- The bias added to every row. -/
abbrev opsBias : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- The inlined clamp at zero. -/
abbrev opsClamp : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- The inlined log-softmax. -/
abbrev opsLogSoftmax : List (HloOp τ sig (Elt F)) :=
  [ TRef.nullary (TRef.of (T := ⟨S_, .f32⟩) main_call2_cst) (constant S_ .f32 0xFF800000#32),
    TRef.binary (TRef.of (T := ⟨S100000x16, .f32⟩) main_v47) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v47) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v48) subf ]

/-- @main's operations are these seven stretches in a row. -/
theorem ops_split : (ops : List (HloOp τ sig (Elt F)))
    = opsProduct ++ (opsDegree ++ (opsSelect ++ (opsScatter ++ (opsBias ++ (opsClamp ++ opsLogSoftmax))))) := rfl

end Lists

variable (W : Valuation τ sig (Elt Ideal))

/-! ## The matrix product -/

theorem product_result : StableHlo.after (opsProduct (F := Ideal)) W (Proc.devRef .tc main_v0)
    = Host.dotGeneral (F := Ideal) (φ₁ := .f32) (φ₂ := .f32) dot_S100000x512_S512x16_S100000x16_1_0_0_1_n_n none (W (Proc.devRef .tc main_arg0)) (W (Proc.devRef .tc main_arg2)) := by
  simp only [opsProduct]; after_results_joined <;> rfl

theorem product_keeps_edges : StableHlo.after (opsProduct (F := Ideal)) W (Proc.devRef .tc main_arg1)
    = (W (Proc.devRef .tc main_arg1)) := by
  simp only [opsProduct]; after_results_joined <;> rfl

theorem product_keeps_bias : StableHlo.after (opsProduct (F := Ideal)) W (Proc.devRef .tc main_arg3)
    = (W (Proc.devRef .tc main_arg3)) := by
  simp only [opsProduct]; after_results_joined <;> rfl

/-! ## Edge ends and degree -/

theorem degree_src : StableHlo.after (opsDegree (F := Ideal)) W (Proc.devRef .tc main_v6)
    = srcNodes (F := Ideal) (W (Proc.devRef .tc main_arg1)) := by
  simp only [opsDegree]; after_results_joined <;> rfl

theorem degree_dst : StableHlo.after (opsDegree (F := Ideal)) W (Proc.devRef .tc main_v7)
    = dstNodes (F := Ideal) (W (Proc.devRef .tc main_arg1)) := by
  simp only [opsDegree]; after_results_joined <;> rfl

theorem degree_positive : StableHlo.after (opsDegree (F := Ideal)) W (Proc.devRef .tc main_v13)
    = degreePositive (F := Ideal) (dstNodes (F := Ideal) (W (Proc.devRef .tc main_arg1))) := by
  simp only [opsDegree]; after_results_joined <;> rfl

theorem degree_rsqrt : StableHlo.after (opsDegree (F := Ideal)) W (Proc.devRef .tc main_v14)
    = Host.rsqrt (F := Ideal) (s := S100000) (φ := .f32) (degree (F := Ideal) (dstNodes (F := Ideal) (W (Proc.devRef .tc main_arg1)))) := by
  simp only [opsDegree]; after_results_joined <;> rfl

theorem degree_zero : StableHlo.after (opsDegree (F := Ideal)) W (Proc.devRef .tc main_cst_2)
    = constant (F := Ideal) S_ .f32 0x00000000#32 := by
  simp only [opsDegree]; after_results_joined <;> rfl

theorem degree_keeps_product : StableHlo.after (opsDegree (F := Ideal)) W (Proc.devRef .tc main_v0)
    = (W (Proc.devRef .tc main_v0)) := by
  simp only [opsDegree]; after_results_joined <;> rfl

theorem degree_keeps_bias : StableHlo.after (opsDegree (F := Ideal)) W (Proc.devRef .tc main_arg3)
    = (W (Proc.devRef .tc main_arg3)) := by
  simp only [opsDegree]; after_results_joined <;> rfl

/-! ## The selection -/

theorem select_result : StableHlo.after (opsSelect (F := Ideal)) W (Proc.devRef .tc main_v15)
    = select (W (Proc.devRef .tc main_v13)) (W (Proc.devRef .tc main_v14)) (broadcastInDim S100000 ![] bcast_S_S100000 (id (W (Proc.devRef .tc main_cst_2)))) := by
  simp only [opsSelect]; after_results_joined <;> rfl

theorem select_keeps_src : StableHlo.after (opsSelect (F := Ideal)) W (Proc.devRef .tc main_v6)
    = (W (Proc.devRef .tc main_v6)) := by
  simp only [opsSelect]; after_results_joined <;> rfl

theorem select_keeps_dst : StableHlo.after (opsSelect (F := Ideal)) W (Proc.devRef .tc main_v7)
    = (W (Proc.devRef .tc main_v7)) := by
  simp only [opsSelect]; after_results_joined <;> rfl

theorem select_keeps_product : StableHlo.after (opsSelect (F := Ideal)) W (Proc.devRef .tc main_v0)
    = (W (Proc.devRef .tc main_v0)) := by
  simp only [opsSelect]; after_results_joined <;> rfl

theorem select_keeps_bias : StableHlo.after (opsSelect (F := Ideal)) W (Proc.devRef .tc main_arg3)
    = (W (Proc.devRef .tc main_arg3)) := by
  simp only [opsSelect]; after_results_joined <;> rfl

/-! ## Gather, scale, scatter-add -/

theorem scatter_result : StableHlo.after (opsScatter (F := Ideal)) W (Proc.devRef .tc main_v43)
    = scatterScaled (F := Ideal) (W (Proc.devRef .tc main_v0)) (W (Proc.devRef .tc main_v6)) (W (Proc.devRef .tc main_v7)) (W (Proc.devRef .tc main_v15)) := by
  simp only [opsScatter]; after_results_joined <;> rfl

theorem scatter_keeps_bias : StableHlo.after (opsScatter (F := Ideal)) W (Proc.devRef .tc main_arg3)
    = (W (Proc.devRef .tc main_arg3)) := by
  simp only [opsScatter]; after_results_joined <;> rfl

/-! ## Bias, clamp, log-softmax -/

theorem bias_result : StableHlo.after (opsBias (F := Ideal)) W (Proc.devRef .tc main_v46)
    = biasedRows (F := Ideal) (W (Proc.devRef .tc main_v43)) (W (Proc.devRef .tc main_arg3)) := by
  simp only [opsBias]; after_results_joined <;> rfl

theorem clamp_result : StableHlo.after (opsClamp (F := Ideal)) W (Proc.devRef .tc main_v47)
    = clampAtZero (F := Ideal) (W (Proc.devRef .tc main_v46)) := by
  simp only [opsClamp]; after_results_joined <;> rfl

/-- The inlined function's intermediate values come wrapped in the two transports between a value's type and its
    buffer's type; the wrappers cancel in pairs, and what is left is the plain term. -/
theorem logSoftmax_result : StableHlo.after (opsLogSoftmax (F := Ideal)) W (Proc.devRef .tc main_v48)
    = logSoftmaxRows (F := Ideal) (W (Proc.devRef .tc main_v47)) := by
  simp only [opsLogSoftmax]
  after_results_joined
  simp only [Cert.TypedRefs.ofBuf_toBuf, Cert.TypedRefs.toBuf_ofBuf]
  rfl

/-! ## The whole line -/

/-- From any contents, @main leaves in its result `finish` of the aggregation of the matrix product. -/
theorem result_read : StableHlo.after (ops (F := Ideal)) W (Proc.devRef .tc main_v48)
    = finish (F := Ideal) (aggregate (F := Ideal)
        (Host.dotGeneral (F := Ideal) (φ₁ := .f32) (φ₂ := .f32) dot_S100000x512_S512x16_S100000x16_1_0_0_1_n_n none (W (Proc.devRef .tc main_arg0)) (W (Proc.devRef .tc main_arg2)))
        (W (Proc.devRef .tc main_arg1))) (W (Proc.devRef .tc main_arg3)) := by
  rw [ops_split]
  simp only [Cert.AfterAppend.after_append]
  rw [logSoftmax_result, clamp_result, bias_result, scatter_result, scatter_keeps_bias, select_keeps_product, select_keeps_src,
    select_keeps_dst, select_result, select_keeps_bias, degree_keeps_product, degree_src, degree_dst, degree_positive,
    degree_rsqrt, degree_zero, degree_keeps_bias, product_result, product_keeps_edges, product_keeps_bias, aggregate_eq_stages]
  rfl

section Run

variable (m : (ℓ : Loc nD τ sig) → Buf (Elt Ideal) ℓ) (ρ : Dev nD → PrngReg)

set_option maxRecDepth 65536 in
set_option maxHeartbeats 8000000 in
/-- Every weakly fair execution of the reference's @main terminates with its result at `finish` of the aggregation of
    the matrix product of the arguments, the arguments unchanged. -/
theorem run : θ_run defs (onTc (τ := τ) (main (F := Ideal))) ⟨m, fun _ => 0, ρ⟩ fun r => ∀ c : Dev nD,
      r.2.mem ((c.tc : Thread nD τ).loc main_v48)
        = finish (F := Ideal) (aggregate (F := Ideal)
            (Host.dotGeneral (F := Ideal) (φ₁ := .f32) (φ₂ := .f32) dot_S100000x512_S512x16_S100000x16_1_0_0_1_n_n none
              (m ((c.tc : Thread nD τ).loc main_arg0)) (m ((c.tc : Thread nD τ).loc main_arg2)))
            (m ((c.tc : Thread nD τ).loc main_arg1))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (result_read _),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Run

end Cert.ReferenceIdeal.HostStretches

end
-- ==== Proof.Spec.lean ====
/-
  One graph-convolution layer followed by a row-wise log-softmax, as functions of whole arrays, index by index, on the
  extended reals.

  * `proj x W`: the projected features, entry `(p, q)` the sum over `k` of `x (p, k) * W (k, q)`.
  * `rowLogSoftmax z`: for one row `z` of 16 entries, `z j - M - log (∑ k, exp (z k - M))` with `M` the maximum of the
    row (a fold of `max` that starts from the word of `-∞`).
  * `act a b`: every row of `a` shifted by the bias row `b`, clamped below at zero, then `rowLogSoftmax` of that row;
    `biasRow b` lays a bias vector out as that one row.

  The neighbourhood aggregation that sits between the two (gathers and scatter-adds driven by the edge list) is the same
  composition of host operations in both programs and is not opened here.
-/
import Idealize.ShloMosaic.PureOps.Ideal
import Idealize.ShloMosaic.PureOps.Ideal.Laws
import Idealize.ShloMosaic.Lib.ValueIdx

noncomputable section

namespace Cert.GcnLogSoftmax

open Idealize.ShloMosaic Idealize.ShloMosaic.ValueIdx

/-- The projected features: row `p` of `x` against column `q` of `W`. -/
def proj (x : (⟨2, ![100000, 512]⟩ : Shape).Idx → EReal) (W : (⟨2, ![512, 16]⟩ : Shape).Idx → EReal) :
    (⟨2, ![100000, 16]⟩ : Shape).Idx → EReal :=
  fun i => ∑ k : Fin 512, x (ix2 (i 0) k) * W (ix2 k (i 1))

/-- The maximum of a row of 16 entries, folded from the word of `-∞`. -/
def rowMax (z : Fin 16 → EReal) : EReal :=
  (Finset.univ : Finset (Fin 16)).fold max (Ideal.ofBits .f32 0xFF800000#32) z

/-- The log-softmax of one row, entry `j`. -/
def rowLogSoftmax (z : Fin 16 → EReal) (j : Fin 16) : EReal :=
  (z j - rowMax z) - Ideal.log (∑ k : Fin 16, Ideal.exp (z k - rowMax z))

/-- Row `p` of `a` plus the bias row, clamped below at (the word of) zero. -/
def reluRow {n : ℕ} (a : (⟨2, ![n, 16]⟩ : Shape).Idx → EReal) (b : (⟨2, ![1, 16]⟩ : Shape).Idx → EReal) (p : Fin n) :
    Fin 16 → EReal :=
  fun k => max (a (ix2 p k) + b (ix2 (0 : Fin 1) k)) (Ideal.ofBits .f32 0x00000000#32)

/-- Bias, clamp at zero, log-softmax, row by row, over any number of rows. -/
def act {n : ℕ} (a : (⟨2, ![n, 16]⟩ : Shape).Idx → EReal) (b : (⟨2, ![1, 16]⟩ : Shape).Idx → EReal) :
    (⟨2, ![n, 16]⟩ : Shape).Idx → EReal :=
  fun i => rowLogSoftmax (reluRow a b (i 0)) (i 1)

/-- A bias vector of 16 entries laid out as the one row of a `[1, 16]` array. -/
def biasRow (b : (⟨1, ![16]⟩ : Shape).Idx → EReal) : (⟨2, ![1, 16]⟩ : Shape).Idx → EReal :=
  fun i => b (ix1 (i 1))

/-- Taking the maximum once more against the fold's own starting value changes nothing. -/
theorem max_start_rowMax (z : Fin 16 → EReal) :
    max (Ideal.ofBits .f32 0xFF800000#32) (rowMax z) = rowMax z :=
  max_eq_right (Finset.le_fold_max _ |>.mpr (Or.inl le_rfl))

/-- `act` at an index depends only on that index's row of the array, on the bias row, and on the index's column. -/
theorem act_congr {n n' : ℕ} (a : (⟨2, ![n, 16]⟩ : Shape).Idx → EReal) (b : (⟨2, ![1, 16]⟩ : Shape).Idx → EReal)
    (a' : (⟨2, ![n', 16]⟩ : Shape).Idx → EReal) (b' : (⟨2, ![1, 16]⟩ : Shape).Idx → EReal)
    (i : (⟨2, ![n, 16]⟩ : Shape).Idx) (i' : (⟨2, ![n', 16]⟩ : Shape).Idx)
    (hrow : ∀ k : Fin 16, a (ix2 (i 0) k) = a' (ix2 (i' 0) k))
    (hb : ∀ k : Fin 16, b (ix2 (0 : Fin 1) k) = b' (ix2 (0 : Fin 1) k))
    (hq : (i 1).val = (i' 1).val) : act a b i = act a' b' i' := by
  have e : reluRow a b (i 0) = reluRow a' b' (i' 0) := funext fun k => by
    unfold reluRow
    rw [hrow k, hb k]
  have q : (i 1 : Fin 16) = i' 1 := Fin.ext hq
  unfold act
  rw [e, q]

end Cert.GcnLogSoftmax

end
-- ==== Proof.KernelRun.lean ====
/-
  The kernel program's whole run, with the final memory read at every unscoped buffer. The program is five segments —
  the projection region, three stretches of host operations, the activation region — and the library's theorem for
  a list of segments runs them in order: every weakly fair execution terminates, and in the final state every
  unscoped buffer of a core holds what the fold of the segments leaves there (`W5`). Read at the result buffer this
  is the result's value; read at the arguments it is the launch memory.
-/
import proofs.«107143_j66365834658260_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this one, which takes unfolding
-- plain definitions in a metavariable's type
set_option backward.isDefEq.respectTransparency.types false in
/-- Every weakly fair execution of @main terminates, and every final state has each unscoped buffer of each core at
    the contents the last segment leaves. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource rides with a core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      -- the first thread state: the unscoped buffers at the launch memory, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- the last thread state holds every unscoped buffer whole, so the final memory agrees with it there
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run read at the result and at the four arguments. -/
theorem run_result : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨h c _ (mem_uc main_v45 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)
    (run_boundary m ρ)

end Cert.KernelIdeal.WholeRun

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.Projection.lean ====
/-
  The first kernel region: the row-tiled matrix product. Point `t` of its 50 grid points holds rows
  `2000 t … 2000 t + 1999` of `x` and the whole of `W`; its block of the result is those rows of `proj x W`
  (the conversions of the operands to a narrower float format are the identity on the extended reals, and the matrix
  unit accumulating into the zero splat is the plain sum over the contracted axis). The 50 blocks tile the result, so
  after the region the result array is `proj x W` of the arrays the region found.
-/
import proofs.«107143_j66365834658260_2_alg».proof.Proof.Gen.KernelIdeal.Frame
import proofs.«107143_j66365834658260_2_alg».proof.Proof.Spec
import proofs.«107143_j66365834658260_2_alg».proof.Proof.LibRowColDot
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Cert.GcnLogSoftmax
open Idealize.ShloMosaic Idealize.ShloMosaic.TcCoe Idealize.ShloMosaic.ValueIdx Idealize.SL.Sem
open Idealize.ShloMosaic.Pipeline (Dat Cfg Window)

/-- The left operand's kept coordinate is the output's row. -/
theorem lhs_row (j : S2000x16.Idx) (q : dot_S2000x512_S512x16_S2000x16_1_0_0_1_n_n.contr.Idx) :
    (dot_S2000x512_S512x16_S2000x16_1_0_0_1_n_n.lhsIdx j q 0).val = (j 0).val := by
  unfold DotDims.lhsIdx
  rw [dif_neg (show ¬(0 : Fin S2000x512.rank) ∈ dot_S2000x512_S512x16_S2000x16_1_0_0_1_n_n.lhsBatch by decide),
    dif_pos (show (0 : Fin S2000x512.rank) ∈ dot_S2000x512_S512x16_S2000x16_1_0_0_1_n_n.lhsNonContracting by decide)]
  rfl

/-- The right operand's kept coordinate is the output's column. -/
theorem rhs_col (j : S2000x16.Idx) (q : dot_S2000x512_S512x16_S2000x16_1_0_0_1_n_n.contr.Idx) :
    (dot_S2000x512_S512x16_S2000x16_1_0_0_1_n_n.rhsIdx j q 1).val = (j 1).val := by
  unfold DotDims.rhsIdx
  rw [dif_neg (show ¬(1 : Fin S512x16.rank) ∈ dot_S2000x512_S512x16_S2000x16_1_0_0_1_n_n.rhsBatch by decide),
    dif_pos (show (1 : Fin S512x16.rank) ∈ dot_S2000x512_S512x16_S2000x16_1_0_0_1_n_n.rhsNonContracting by decide)]
  rfl

/-- The body's stored value at `(r, q)`: row `r` of the left block against column `q` of the right one. -/
theorem pay_apply (x0 : Vec Ideal S2000x512 .f32) (x1 : Vec Ideal S512x16 .f32) (j : S2000x16.Idx) :
    k0_pay1 (F := Ideal) x0 x1 j = ∑ k : Fin 512, x0 (ix2 (j 0) k) * x1 (ix2 k (j 1)) := by
  unfold k0_pay1
  exact Cert.RowColDot.matmul_rowcol dot_S2000x512_S512x16_S2000x16_1_0_0_1_n_n rfl rfl rfl rfl lhs_row rhs_col none
    (truncf .bf16 x0 bitsLt_bf16_f32) (truncf .bf16 x1 bitsLt_bf16_f32) j

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the row block of `x` and of the result is the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `proj` of the arrays the region found. -/
theorem flushed_eq (c : Dev nD) (t : Fin cfg0.N) :
    (dat0 V c).flushed 2 t
      = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero zero_off]
  simp only [View.ld_unit_zero (S := S2000x512) zero_off, View.ld_unit_zero (S := S512x16) zero_off]
  obtain ⟨e0, e1, e2, e3, e4, e5⟩ := idx_facts t
  funext j
  refine (pay_apply (iblk0 V c 0 t) (iblk0 V c 1 t) j).trans ?_
  show _ = proj (V c main_arg0) (V c main_arg2) (((cfg0.win 2).blk t).view.emb j)
  unfold proj
  refine Finset.sum_congr rfl fun k _ => ?_
  have h0 : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) ?_
    funext a; apply Fin.ext
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  have h1 : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) ?_
    funext a; apply Fin.ext
    match a with
    | ⟨0, _⟩ =>
      show win0_1.index t (0 : Fin 2) * 512 + 1 * k.val = k.val
      omega
    | ⟨1, _⟩ =>
      show win0_1.index t (1 : Fin 2) * 16 + 1 * (j 1).val = win0_2.index t (1 : Fin 2) * 16 + 1 * (j 1).val
      omega
  exact congrArg₂ (fun a b : EReal => a * b) h0 h1

/-- An index of the result is in point `t`'s block iff each coordinate is in the block's range on its axis. -/
theorem mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v0).slice (win0_2.rect t)).set ↔ _
  rw [View.set_slice_whole, Rect.mem_set_unit]
  exact Iff.rfl

/-- Row `r` of the result lies in the block of point `r / 2000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  obtain ⟨-, -, -, -, e4, e5⟩ := idx_facts t
  have ht : t.val = (i 0).val / 2000 := rfl
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 16 ≤ (i 1).val ∧ (i 1).val < win0_2.index t (1 : Fin 2) * 16 + 16
    omega

/-- After the region the result array is `proj` of the two arrays the region found. -/
theorem final (c : Dev nD) :
    (dat0 V c).arrAt 2 cfg0.N = proj (V c main_arg0) (V c main_arg2) :=
  (dat0 V c).arrAt_eq_of_cover 2 (proj (V c main_arg0) (V c main_arg2)) (fun t _ => flushed_eq V c t) cover

end Cert.KernelIdeal.Projection

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.LogSoftmaxRows.lean ====
/-
  The second kernel region: bias, clamp at zero and log-softmax over blocks of 10000 rows. Point `t` of its 10 grid
  points holds rows `10000 t … 10000 t + 9999` of the aggregated features and the one bias row; every row of its block
  of the result depends on that row of the input alone, so the block is those rows of `act` of the whole arrays. The
  10 blocks tile the result.
-/
import proofs.«107143_j66365834658260_2_alg».proof.Proof.Gen.KernelIdeal.Frame
import proofs.«107143_j66365834658260_2_alg».proof.Proof.Spec
import proofs.«107143_j66365834658260_2_alg».proof.Proof.LibKeepdims
import proofs.«107143_j66365834658260_2_alg».proof.Proof.LibColumnBroadcast
import proofs.«107143_j66365834658260_2_alg».proof.Proof.LibRowBroadcast
import Idealize.ShloMosaic.Lib.Pipeline.Value
import Idealize.ShloMosaic.Lib.ValueIdx
import Idealize.ShloMosaic.PureOps.Ideal.Laws

set_option maxRecDepth 16384

noncomputable section

namespace Cert.KernelIdeal.LogSoftmaxRows

open Cert.KernelIdeal Cert.KernelIdeal.Gen Cert.GcnLogSoftmax
open Idealize.ShloMosaic Idealize.ShloMosaic.TcCoe Idealize.ShloMosaic.ValueIdx Idealize.SL.Sem
open Idealize.ShloMosaic.Pipeline (Dat Cfg Window)

section Body

variable (x0 : Vec Ideal S10000x16 .f32) (x1 : Vec Ideal S1x16 .f32)

/-- The block plus the bias row, clamped below at zero, as the body's vector term. -/
def clamped : FVec Ideal S10000x16 .f32 :=
  maximumf (addf (shapeCast S10000x16 x0 shapeCasts_S10000x16_S10000x16)
      (broadcastTo S10000x16 (shapeCast S1x16 x1 shapeCasts_S1x16_S1x16) broadcasts_S1x16_S10000x16))
    (broadcast S10000x16 (Scalar.ofBits .f32 0x00000000#32))

theorem clamped_apply (p : Fin 10000) (k : Fin 16) : clamped x0 x1 (ix2 p k) = reluRow x0 x1 p k := by
  show max ((shapeCast S10000x16 x0 shapeCasts_S10000x16_S10000x16) (ix2 p k)
      + broadcastTo S10000x16 (shapeCast S1x16 x1 shapeCasts_S1x16_S1x16) broadcasts_S1x16_S10000x16 (ix2 p k)) _ = _
  rw [shapeCast_self, Cert.RowBroadcast.row_broadcast_apply, shapeCast_self]
  rfl

/-- The rows' maxima, as the body's vector term. -/
def rowMaxVec : FVec Ideal S10000 .f32 :=
  multiReduction .maximumf [1] S10000 (clamped x0 x1) 0xFF800000#32 reduces_S10000x16_S10000 (.inl rfl) rfl

theorem rowMaxVec_apply (p : Fin 10000) : rowMaxVec x0 x1 (ix1 p) = rowMax (reluRow x0 x1 p) :=
  (Cert.MemAttn.Layout.multiReduction_maximumf_row (clamped x0 x1) 0xFF800000#32 reduces_S10000x16_S10000 (.inl rfl) rfl p).trans
    (congrArg (fun f => (Finset.univ : Finset (Fin 16)).fold max (Ideal.ofBits .f32 0xFF800000#32) f)
      (funext fun k => clamped_apply x0 x1 p k))

/-- Every row less its maximum, as the body's vector term. -/
def shifted : FVec Ideal S10000x16 .f32 :=
  subf (clamped x0 x1)
    (broadcastTo S10000x16 (shapeCast S10000x1 (rowMaxVec x0 x1) shapeCasts_S10000_S10000x1) broadcasts_S10000x1_S10000x16)

theorem shifted_apply (p : Fin 10000) (k : Fin 16) :
    shifted x0 x1 (ix2 p k) = reluRow x0 x1 p k - rowMax (reluRow x0 x1 p) := by
  show clamped x0 x1 (ix2 p k)
      - broadcastTo S10000x16 (shapeCast S10000x1 (rowMaxVec x0 x1) shapeCasts_S10000_S10000x1) broadcasts_S10000x1_S10000x16 (ix2 p k) = _
  rw [clamped_apply, Cert.WeightUpdate.Layout.broadcastTo_a1_ab_apply, Cert.MemAttn.Layout.shapeCast_a_a1_apply, rowMaxVec_apply]

/-- The rows' sums of exponentials, as the body's vector term. -/
def expSumVec : FVec Ideal S10000 .f32 :=
  multiReduction .add [1] S10000 (exp (shifted x0 x1)) 0x00000000#32 reduces_S10000x16_S10000 (.inl rfl) rfl

theorem expSumVec_apply (p : Fin 10000) :
    expSumVec x0 x1 (ix1 p) = ∑ k : Fin 16, Ideal.exp (reluRow x0 x1 p k - rowMax (reluRow x0 x1 p)) :=
  (Cert.MemAttn.Layout.multiReduction_add_row (exp (shifted x0 x1)) 0x00000000#32 reduces_S10000x16_S10000 (.inl rfl) rfl p).trans
    (Finset.sum_congr rfl fun k _ => congrArg Ideal.exp (shifted_apply x0 x1 p k))

/-- The body's stored value is these terms put together. -/
theorem pay_eq : k1_pay1 (F := Ideal) x0 x1
    = subf (shifted x0 x1)
        (broadcastTo S10000x16 (log (shapeCast S10000x1 (expSumVec x0 x1) shapeCasts_S10000_S10000x1)) broadcasts_S10000x1_S10000x16) := rfl

/-- The body's stored block is `act` of its two input blocks. -/
theorem pay_eq_act : k1_pay1 (F := Ideal) x0 x1 = act x0 x1 := by
  funext j
  obtain ⟨p, q, rfl⟩ : ∃ (p : Fin 10000) (q : Fin 16), j = ix2 p q := ⟨j 0, j 1, eq_ix2 j⟩
  rw [pay_eq]
  show shifted x0 x1 (ix2 p q)
      - broadcastTo S10000x16 (log (shapeCast S10000x1 (expSumVec x0 x1) shapeCasts_S10000_S10000x1)) broadcasts_S10000x1_S10000x16 (ix2 p q)
    = rowLogSoftmax (reluRow x0 x1 p) q
  rw [shifted_apply, Cert.WeightUpdate.Layout.broadcastTo_a1_ab_apply]
  show _ - Ideal.log (shapeCast S10000x1 (expSumVec x0 x1) shapeCasts_S10000_S10000x1 (ix2 p (0 : Fin 1))) = _
  rw [Cert.MemAttn.Layout.shapeCast_a_a1_apply, expSumVec_apply]
  rfl

end Body

variable (V : (c : Dev nD) → (b : Ref sig .tc) → Buf (Elt Ideal) ((c : Thread nD τ).loc b))

theorem zero_off : (![0, 0] : Fin 2 → Nat) = fun _ => 0 := funext fun a => by fin_cases a <;> rfl

/-- The printed index maps over the grid: the row block of the input and of the result is the point's number, every
    other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `act` of the arrays the region found. -/
theorem flushed_eq (c : Dev nD) (t : Fin cfg1.N) :
    (dat1 V c).flushed 2 t
      = ((cfg1.win 2).blk t).view.read (Elt Ideal) (act (V c main_v43) (V c main_v44)) := by
  show (cfg1.win 2).cut (grid1.coords t) ((dat1 V c).after 2 t) = _
  rw [after1_2]
  unfold out1_2
  rw [View.canon_unit_zero zero_off]
  simp only [View.ld_unit_zero (S := S10000x16) zero_off, View.ld_unit_zero (S := S1x16) zero_off]
  rw [pay_eq_act]
  obtain ⟨e0, e1, e2, e3, e4, e5⟩ := idx_facts t
  funext j
  show act (iblk1 V c 0 t) (iblk1 V c 1 t) j = act (V c main_v43) (V c main_v44) (((cfg1.win 2).blk t).view.emb j)
  refine act_congr _ _ _ _ _ _ (fun k => ?_) (fun k => ?_) ?_
  · show V c main_v43 (((cfg1.win 0).blk t).view.emb (ix2 (j 0) k)) = _
    refine congrArg (V c main_v43) ?_
    funext a; apply Fin.ext
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 16 + 1 * k.val = k.val
      omega
  · show V c main_v44 (((cfg1.win 1).blk t).view.emb (ix2 (0 : Fin 1) k)) = _
    refine congrArg (V c main_v44) ?_
    funext a; apply Fin.ext
    match a with
    | ⟨0, _⟩ =>
      show win1_1.index t (0 : Fin 2) * 1 + 1 * 0 = 0
      omega
    | ⟨1, _⟩ =>
      show win1_1.index t (1 : Fin 2) * 16 + 1 * k.val = k.val
      omega
  · show (j 1).val = win1_2.index t (1 : Fin 2) * 16 + 1 * (j 1).val
    omega

/-- An index of the result is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v45).slice (win1_2.rect t)).set ↔ _
  rw [View.set_slice_whole, Rect.mem_set_unit]
  exact Iff.rfl

/-- Row `r` of the result lies in the block of point `r / 10000`. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  let t : Fin cfg1.N := ⟨(i 0).val / 10000, by rw [hN]; omega⟩
  obtain ⟨-, -, -, -, e4, e5⟩ := idx_facts t
  have ht : t.val = (i 0).val / 10000 := rfl
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 16 ≤ (i 1).val ∧ (i 1).val < win1_2.index t (1 : Fin 2) * 16 + 16
    omega

/-- After the region the result array is `act` of the two arrays the region found. -/
theorem final (c : Dev nD) :
    (dat1 V c).arrAt 2 cfg1.N = act (V c main_v43) (V c main_v44) :=
  (dat1 V c).arrAt_eq_of_cover 2 (act (V c main_v43) (V c main_v44)) (fun t _ => flushed_eq V c t) cover

end Cert.KernelIdeal.LogSoftmaxRows

end
-- ==== Proof.KernelHost.lean ====
/-
  The three stretches of host operations between the two kernel regions, read buffer by buffer from any contents `W`
  they start from. The first stretch builds the two edge-end lists, the in-degree, where it is positive and its
  inverse square root; the second (an inlined selection) puts zero where the degree is not positive; the third gathers,
  scales and scatter-adds the projected rows, and recasts the bias. A stretch leaves alone every buffer it does not
  write.
-/
import proofs.«107143_j66365834658260_2_alg».proof.Proof.Gen.KernelIdeal.Launch
import proofs.«107143_j66365834658260_2_alg».proof.Proof.Aggregate
import proofs.«107143_j66365834658260_2_alg».proof.Proof.LibJoinedResults
import Idealize.ShloMosaic.PureOps.Ideal

set_option maxRecDepth 16384

noncomputable section

namespace Cert.KernelIdeal.HostStretches

open Cert.KernelIdeal Cert.KernelIdeal.Gen
open Idealize.ShloMosaic Idealize.ShloMosaic.TcCoe Idealize.SL.Sem Idealize.ShloMosaic.StableHlo

variable (W : Valuation τ sig (Elt Ideal))

/-! ## The first stretch -/

theorem first_src : StableHlo.after (hostOps1 (F := Ideal)) W (Proc.devRef .tc main_v6)
    = srcNodes (F := Ideal) (W (Proc.devRef .tc main_arg1)) := by
  simp only [hostOps1]; after_results_joined <;> rfl

theorem first_dst : StableHlo.after (hostOps1 (F := Ideal)) W (Proc.devRef .tc main_v7)
    = dstNodes (F := Ideal) (W (Proc.devRef .tc main_arg1)) := by
  simp only [hostOps1]; after_results_joined <;> rfl

theorem first_positive : StableHlo.after (hostOps1 (F := Ideal)) W (Proc.devRef .tc main_v13)
    = degreePositive (F := Ideal) (dstNodes (F := Ideal) (W (Proc.devRef .tc main_arg1))) := by
  simp only [hostOps1]; after_results_joined <;> rfl

theorem first_rsqrt : StableHlo.after (hostOps1 (F := Ideal)) W (Proc.devRef .tc main_v14)
    = Host.rsqrt (F := Ideal) (s := S100000) (φ := .f32) (degree (F := Ideal) (dstNodes (F := Ideal) (W (Proc.devRef .tc main_arg1)))) := by
  simp only [hostOps1]; after_results_joined <;> rfl

theorem first_zero : StableHlo.after (hostOps1 (F := Ideal)) W (Proc.devRef .tc main_cst_2)
    = constant (F := Ideal) S_ .f32 0x00000000#32 := by
  simp only [hostOps1]; after_results_joined <;> rfl

theorem first_keeps_projected : StableHlo.after (hostOps1 (F := Ideal)) W (Proc.devRef .tc main_v0) = (W (Proc.devRef .tc main_v0)) := by
  simp only [hostOps1]; after_results_joined <;> rfl

theorem first_keeps_bias : StableHlo.after (hostOps1 (F := Ideal)) W (Proc.devRef .tc main_arg3) = (W (Proc.devRef .tc main_arg3)) := by
  simp only [hostOps1]; after_results_joined <;> rfl

/-! ## The second stretch -/

theorem second_select : StableHlo.after (hostOps1_1 (F := Ideal)) W (Proc.devRef .tc main_v15)
    = select (W (Proc.devRef .tc main_v13)) (W (Proc.devRef .tc main_v14)) (broadcastInDim S100000 ![] bcast_S_S100000 (id (W (Proc.devRef .tc main_cst_2)))) := by
  simp only [hostOps1_1]; after_results_joined <;> rfl

theorem second_keeps_src : StableHlo.after (hostOps1_1 (F := Ideal)) W (Proc.devRef .tc main_v6) = (W (Proc.devRef .tc main_v6)) := by
  simp only [hostOps1_1]; after_results_joined <;> rfl

theorem second_keeps_dst : StableHlo.after (hostOps1_1 (F := Ideal)) W (Proc.devRef .tc main_v7) = (W (Proc.devRef .tc main_v7)) := by
  simp only [hostOps1_1]; after_results_joined <;> rfl

theorem second_keeps_projected : StableHlo.after (hostOps1_1 (F := Ideal)) W (Proc.devRef .tc main_v0) = (W (Proc.devRef .tc main_v0)) := by
  simp only [hostOps1_1]; after_results_joined <;> rfl

theorem second_keeps_bias : StableHlo.after (hostOps1_1 (F := Ideal)) W (Proc.devRef .tc main_arg3) = (W (Proc.devRef .tc main_arg3)) := by
  simp only [hostOps1_1]; after_results_joined <;> rfl

/-! ## The third stretch -/

theorem third_scatter : StableHlo.after (hostOps1_2 (F := Ideal)) W (Proc.devRef .tc main_v43)
    = scatterScaled (F := Ideal) (W (Proc.devRef .tc main_v0)) (W (Proc.devRef .tc main_v6)) (W (Proc.devRef .tc main_v7)) (W (Proc.devRef .tc main_v15)) := by
  simp only [hostOps1_2]; after_results_joined <;> rfl

theorem third_bias : StableHlo.after (hostOps1_2 (F := Ideal)) W (Proc.devRef .tc main_v44)
    = shapeCast S1x16 (W (Proc.devRef .tc main_arg3)) shapeCasts_S16_S1x16 := by
  simp only [hostOps1_2]; after_results_joined <;> rfl

/-! ## The three in a row -/

/-- From contents `W`, the three stretches leave the aggregation of `W`'s projected features over `W`'s edge list. -/
theorem aggregated : StableHlo.after (hostOps1_2 (F := Ideal)) (StableHlo.after hostOps1_1 (StableHlo.after hostOps1 W)) (Proc.devRef .tc main_v43)
    = aggregate (F := Ideal) (W (Proc.devRef .tc main_v0)) (W (Proc.devRef .tc main_arg1)) := by
  rw [third_scatter, second_keeps_projected, second_keeps_src, second_keeps_dst, second_select, first_keeps_projected,
    first_src, first_dst, first_positive, first_rsqrt, first_zero, aggregate_eq_stages]
  rfl

/-- From contents `W`, the three stretches leave `W`'s bias recast as a `[1, 16]` array. -/
theorem bias_recast : StableHlo.after (hostOps1_2 (F := Ideal)) (StableHlo.after hostOps1_1 (StableHlo.after hostOps1 W)) (Proc.devRef .tc main_v44)
    = shapeCast S1x16 (W (Proc.devRef .tc main_arg3)) shapeCasts_S16_S1x16 := by
  rw [third_bias, second_keeps_bias, first_keeps_bias]

end Cert.KernelIdeal.HostStretches

end
-- ==== Proof.KernelValue.lean ====
/-
  The kernel program's result as one function of its four arguments. The projection region leaves `proj x W` in its
  result array and touches no argument; the three stretches of host operations compute from it and from the edge list
  the shared aggregation, and lay the bias out as a row; the activation region leaves `act` of those two in the
  program's result.
-/
import proofs.«107143_j66365834658260_2_alg».proof.Proof.Gen.KernelIdeal.Frame
import proofs.«107143_j66365834658260_2_alg».proof.Proof.Spec
import proofs.«107143_j66365834658260_2_alg».proof.Proof.Aggregate
import proofs.«107143_j66365834658260_2_alg».proof.Proof.Projection
import proofs.«107143_j66365834658260_2_alg».proof.Proof.LogSoftmaxRows
import proofs.«107143_j66365834658260_2_alg».proof.Proof.KernelHost
import Idealize.ShloMosaic.Lib.Pipeline.Value
import Idealize.ShloMosaic.Lib.ValueIdx

set_option maxRecDepth 16384

noncomputable section

namespace Cert.KernelIdeal.ResultValue

open Cert.KernelIdeal Cert.KernelIdeal.Gen Cert.GcnLogSoftmax
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- After the projection region its result array holds `proj` of the two arguments it reads. -/
theorem projected (c : Dev nD) : W1 m ρ c (Proc.devRef .tc main_v0)
    = proj (m ((c : Thread nD τ).loc main_arg0)) (m ((c : Thread nD τ).loc main_arg2)) :=
  (W1_arr m ρ c 2).trans (Cert.KernelIdeal.Projection.final (V0 m ρ) c)

/-- The projection region leaves the edge list as launched. -/
theorem kept_edges (c : Dev nD) : W1 m ρ c (Proc.devRef .tc main_arg1) = m ((c : Thread nD τ).loc main_arg1) :=
  W1_of_ne m ρ c main_arg1 (by decide)

/-- The projection region leaves the bias as launched. -/
theorem kept_bias (c : Dev nD) : W1 m ρ c (Proc.devRef .tc main_arg3) = m ((c : Thread nD τ).loc main_arg3) :=
  W1_of_ne m ρ c main_arg3 (by decide)

/-- The host stretches leave the shared aggregation of the projected features and the edge list. -/
theorem aggregated (c : Dev nD) : W4 m ρ c (Proc.devRef .tc main_v43)
    = aggregate (F := Ideal) (W1 m ρ c (Proc.devRef .tc main_v0)) (W1 m ρ c (Proc.devRef .tc main_arg1)) :=
  Cert.KernelIdeal.HostStretches.aggregated (W1 m ρ c)

/-- The host stretches leave the bias recast as a `[1, 16]` array. -/
theorem bias_recast (c : Dev nD) : W4 m ρ c (Proc.devRef .tc main_v44)
    = shapeCast S1x16 (W1 m ρ c (Proc.devRef .tc main_arg3)) shapeCasts_S16_S1x16 :=
  Cert.KernelIdeal.HostStretches.bias_recast (W1 m ρ c)

/-- A vector of 16 entries recast as a `[1, 16]` array is the vector laid out as that one row. -/
theorem recast_eq_biasRow (b : S16.Idx → EReal) : shapeCast S1x16 b shapeCasts_S16_S1x16 = biasRow b := by
  funext i
  obtain ⟨u, k, rfl⟩ : ∃ (u : Fin 1) (k : Fin 16), i = ix2 u k := ⟨i 0, i 1, eq_ix2 i⟩
  refine shapeCast_apply b shapeCasts_S16_S1x16 (ix2 u k) (ix1 k) ?_
  have hu : u.val = 0 := by omega
  rw [Shape.rowMajor_val_two, Shape.rowMajor_val_one]
  show k.val = u.val * 16 + k.val
  omega

/-- The program's result after the run. -/
theorem result_value (c : Dev nD) : W5 m ρ c (Proc.devRef .tc main_v45)
    = act (aggregate (F := Ideal) (proj (m ((c : Thread nD τ).loc main_arg0)) (m ((c : Thread nD τ).loc main_arg2)))
        (m ((c : Thread nD τ).loc main_arg1))) (biasRow (m ((c : Thread nD τ).loc main_arg3))) := by
  refine (W5_arr m ρ c 2).trans ?_
  refine (Cert.KernelIdeal.LogSoftmaxRows.final (V4 m ρ) c).trans ?_
  show act (W4 m ρ c (Proc.devRef .tc main_v43)) (W4 m ρ c (Proc.devRef .tc main_v44)) = _
  rw [aggregated, bias_recast, projected, kept_edges, kept_bias, recast_eq_biasRow]

end Cert.KernelIdeal.ResultValue

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.RefValue.lean ====
/-
  The reference's result, read index by index: its last stages — the bias row added to every row, the clamp at zero,
  the row maximum (taken once more against `-∞`, which changes nothing), the shifted rows, the sum of their
  exponentials (from the initial value zero) and its logarithm — are `act` of the aggregated features and the bias
  laid out as a row; the aggregated features are the shared aggregation of the projected features; and the host's
  matrix product is `proj`. The stage functions composed are the term the run leaves (`finish` of the aggregation).
-/
import proofs.«107143_j66365834658260_2_alg».proof.Proof.RefRead
import proofs.«107143_j66365834658260_2_alg».proof.Proof.Spec
import proofs.«107143_j66365834658260_2_alg».proof.Proof.Aggregate
import proofs.«107143_j66365834658260_2_alg».proof.Proof.RefHost
import proofs.«107143_j66365834658260_2_alg».proof.Proof.LibHostRowMax

set_option maxRecDepth 16384

noncomputable section

namespace Cert.ReferenceIdeal.RefValue

open Cert.ReferenceIdeal Cert.ReferenceIdeal.Gen Cert.ReferenceIdeal.ReadP Cert.GcnLogSoftmax
open Idealize.ShloMosaic Idealize.ShloMosaic.ValueIdx

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))

/-- The clamped rows: the aggregated row plus the bias, against zero. -/
theorem clamped_apply (p : Fin 100000) (k : Fin 16) :
    val_main_v47 (F := Ideal) x0 x1 x2 x3 (ix2 p k) = reluRow (val_main_v43 (F := Ideal) x0 x1 x2) (biasRow x3) p k := by
  rw [val_main_v47_apply, val_main_v46_apply, val_main_call1_v0_apply, val_main_call1_cst_apply, val_main_v45_apply,
    val_main_v44_apply]
  have hi : idx_main_v44 (idx_main_v45 (ix2 p k)) = ix1 k :=
    funext fun a => Fin.ext (by match a with | ⟨0, _⟩ => rfl)
  rw [hi]
  rfl

/-- The row maximum, taken once more against its own starting value. -/
theorem rowMax_apply (p : Fin 100000) :
    val_main_call2_v2 (F := Ideal) x0 x1 x2 x3 (ix1 p) = rowMax (reluRow (val_main_v43 (F := Ideal) x0 x1 x2) (biasRow x3) p) := by
  have h0 : val_main_call2_v0 (F := Ideal) x0 x1 x2 x3 (ix1 p)
      = rowMax (reluRow (val_main_v43 (F := Ideal) x0 x1 x2) (biasRow x3) p) := by
    unfold val_main_call2_v0
    refine (Cert.HostRowMax.hostReduceMax_row (val_main_v47 (F := Ideal) x0 x1 x2 x3) (val_main_call2_cst (F := Ideal))
      reducesTo_S100000x16_S100000_d1 (by decide) h_S_ p).trans ?_
    exact congrArg (fun f => (Finset.univ : Finset (Fin 16)).fold max (Ideal.ofBits .f32 0xFF800000#32) f)
      (funext fun k => clamped_apply x0 x1 x2 x3 p k)
  rw [val_main_call2_v2_apply, val_main_call2_v1_apply, val_main_call2_cst_0_apply, h0]
  exact max_start_rowMax _

/-- The shifted rows. -/
theorem shifted_apply (p : Fin 100000) (k : Fin 16) :
    val_main_call2_v5 (F := Ideal) x0 x1 x2 x3 (ix2 p k)
      = reluRow (val_main_v43 (F := Ideal) x0 x1 x2) (biasRow x3) p k
        - rowMax (reluRow (val_main_v43 (F := Ideal) x0 x1 x2) (biasRow x3) p) := by
  rw [val_main_call2_v5_apply, val_main_call2_v4_apply, val_main_call2_v3_apply]
  have hi : idx_main_call2_v3 (idx_main_call2_v4 (ix2 p k)) = ix1 p :=
    funext fun a => Fin.ext (by match a with | ⟨0, _⟩ => rfl)
  rw [hi, rowMax_apply, clamped_apply]
  rfl

/-- The rows' sums of exponentials. -/
theorem expSum_apply (p : Fin 100000) :
    val_main_call2_v7 (F := Ideal) x0 x1 x2 x3 (ix1 p)
      = ∑ k : Fin 16, Ideal.exp (reluRow (val_main_v43 (F := Ideal) x0 x1 x2) (biasRow x3) p k
          - rowMax (reluRow (val_main_v43 (F := Ideal) x0 x1 x2) (biasRow x3) p)) := by
  rw [val_main_call2_v7_apply]
  have hk : ∀ k : Fin 16, idx_main_call2_v7 (ix1 p) k = ix2 p k := fun k =>
    funext fun a => Fin.ext (by match a with | ⟨0, _⟩ => rfl | ⟨1, _⟩ => rfl)
  have hs : ∀ k : Fin 16, val_main_call2_v6 (F := Ideal) x0 x1 x2 x3 (idx_main_call2_v7 (ix1 p) k)
      = Ideal.exp (reluRow (val_main_v43 (F := Ideal) x0 x1 x2) (biasRow x3) p k
          - rowMax (reluRow (val_main_v43 (F := Ideal) x0 x1 x2) (biasRow x3) p)) := fun k => by
    rw [hk k, val_main_call2_v6_apply, shifted_apply, Ideal.hostUnary_exp_def]
  rw [Finset.sum_congr rfl fun k _ => hs k, val_main_call2_cst_1_apply, Ideal.ofBits_def, Ideal.ofBits_zero_f32, zero_add]

/-- The reference's last stages are `act` of the aggregated features and the bias row. -/
theorem tail_eq : val_main_v48 (F := Ideal) x0 x1 x2 x3 = act (val_main_v43 (F := Ideal) x0 x1 x2) (biasRow x3) := by
  funext i
  obtain ⟨p, q, rfl⟩ : ∃ (p : Fin 100000) (q : Fin 16), i = ix2 p q := ⟨i 0, i 1, eq_ix2 i⟩
  rw [val_main_v48_apply, val_main_call2_v10_apply, val_main_call2_v9_apply, val_main_call2_v8_apply]
  have hi : idx_main_call2_v8 (idx_main_call2_v10 (ix2 p q)) = ix1 p :=
    funext fun a => Fin.ext (by match a with | ⟨0, _⟩ => rfl)
  rw [hi, expSum_apply, shifted_apply, Ideal.subf_def, Ideal.hostUnary_log_def]
  unfold act rowLogSoftmax
  rfl

/-- The aggregated features are the shared aggregation of the host's matrix product and the edge list. -/
theorem aggregated_eq : val_main_v43 (F := Ideal) x0 x1 x2 = aggregate (F := Ideal) (val_main_v0 (F := Ideal) x0 x2) x1 := rfl

/-- The host's matrix product is `proj`. -/
theorem product_eq : val_main_v0 (F := Ideal) x0 x2 = proj x0 x2 := by
  funext i
  rw [val_main_v0_apply]
  unfold proj
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

/-- The reference's result as one function of its four arguments. -/
theorem result_eq : val_main_v48 (F := Ideal) x0 x1 x2 x3 = act (aggregate (F := Ideal) (proj x0 x2) x1) (biasRow x3) := by
  rw [tail_eq, aggregated_eq, product_eq]

/-- The stages after the aggregation are `finish` of the aggregated features and the bias. -/
theorem finish_stage : val_main_v48 (F := Ideal) x0 x1 x2 x3 = finish (F := Ideal) (val_main_v43 (F := Ideal) x0 x1 x2) x3 := rfl

/-- The first stage is the host's matrix product. -/
theorem product_stage : val_main_v0 (F := Ideal) x0 x2
    = Host.dotGeneral (F := Ideal) (φ₁ := .f32) (φ₂ := .f32) dot_S100000x512_S512x16_S100000x16_1_0_0_1_n_n none x0 x2 := rfl

/-- What the reference's run leaves in its result, as `act` of the aggregation of `proj`. -/
theorem finish_eq : finish (F := Ideal) (aggregate (F := Ideal)
      (Host.dotGeneral (F := Ideal) (φ₁ := .f32) (φ₂ := .f32) dot_S100000x512_S512x16_S100000x16_1_0_0_1_n_n none x0 x2) x1) x3
    = act (aggregate (F := Ideal) (proj x0 x2) x1) (biasRow x3) := by
  rw [← product_stage, ← aggregated_eq, ← finish_stage, result_eq]

end Cert.ReferenceIdeal.RefValue

end
-- ==== Proof.lean ====
/-
  A one-layer graph convolution with a log-softmax read-out, computed two ways, gives one result on the extended reals.

  Both programs form `h = x · W`, aggregate `h` over the edge list with self-loops and the symmetric
  inverse-square-root degree weights, add a bias, clamp at zero and take the log-softmax of every row. The reference
  does all of it with host operations. The kernel program tiles the matrix product over 50 blocks of 2000 rows in one
  kernel region (its operands narrowed to a shorter float format, which is the identity on the extended reals) and the
  bias / clamp / log-softmax over 10 blocks of 10000 rows in a second region; the aggregation between them is the very
  composition of host operations the reference uses.

  * `Proof/Spec.lean` states `proj` and `act`; `Proof/Aggregate.lean` names the shared aggregation.
  * `Proof/Projection.lean` and `Proof/LogSoftmaxRows.lean`: each region's result array is `proj`, resp. `act`, of the
    arrays the region finds — a row of a block depends on that row of the whole array only, and the blocks tile it.
  * `Proof/KernelRun.lean` runs the whole kernel program and reads the final memory; `Proof/KernelHost.lean` reads the
    host stretches between the regions; `Proof/KernelValue.lean` follows the result buffer back to the arguments.
  * `Proof/RefHost.lean` reads the reference's run stretch by stretch.
  * `Proof/RefValue.lean` reads the reference's result index by index: the extra maximum against `-∞` and the sum's
    initial zero drop out, the rest is `act` of the shared aggregation of `proj`.
  No law of the extended reals beyond `max a (max a b …) = max a b …` and `0 + s = s` is used, so the inputs'
  finiteness is never opened. The three frame claims are the generated frames and the reference's run.
-/
import proofs.«107143_j66365834658260_2_alg».proof.Defs
import proofs.«107143_j66365834658260_2_alg».proof.Proof.Gen.Kernel
import proofs.«107143_j66365834658260_2_alg».proof.Proof.Gen.Kernel.Frame
import proofs.«107143_j66365834658260_2_alg».proof.Proof.Gen.KernelIdeal
import proofs.«107143_j66365834658260_2_alg».proof.Proof.Gen.KernelIdeal.Frame
import proofs.«107143_j66365834658260_2_alg».proof.Proof.Gen.ReferenceIdeal
import proofs.«107143_j66365834658260_2_alg».proof.Proof.Gen.Pre_finite_inputs
import proofs.«107143_j66365834658260_2_alg».proof.Proof.RefHost
import proofs.«107143_j66365834658260_2_alg».proof.Proof.Spec
import proofs.«107143_j66365834658260_2_alg».proof.Proof.Aggregate
import proofs.«107143_j66365834658260_2_alg».proof.Proof.KernelRun
import proofs.«107143_j66365834658260_2_alg».proof.Proof.KernelValue
import proofs.«107143_j66365834658260_2_alg».proof.Proof.RefValue
import Idealize.ShloMosaic.Adequacy
import Idealize.ShloMosaic.Init

noncomputable section

namespace Cert.Proof

open Idealize.ShloMosaic Idealize.ShloMosaic.TcCoe Idealize.SL.Sem Cert.GcnLogSoftmax

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.HostStretches.run m ρ)

/-- Both programs end with `act (aggregate (proj x W) edges) (biasRow b)` in their result. -/
theorem algebraic : Cert.algebraic_KernelIdeal_ReferenceIdeal := by
  intro m ρ m' ρ' _ hagree
  refine ⟨fun c => act (Cert.KernelIdeal.aggregate (F := Ideal)
      (proj (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)))
    (biasRow (m ((c.tc : Thread Cert.KernelIdeal.nD Cert.KernelIdeal.τ).loc Cert.KernelIdeal.main_arg3))), ?_, ?_⟩
  · exact (θ_run Cert.KernelIdeal.defs _ _).mono
      (fun r h c => ⟨(h c).1.trans (Cert.KernelIdeal.ResultValue.result_value m ρ c), (h c).2⟩)
      (Cert.KernelIdeal.WholeRun.run_result (F := Ideal) m ρ)
  · refine (θ_run Cert.ReferenceIdeal.defs _ _).mono (fun _ h c => ⟨(h c).1.trans ?_, (h c).2⟩)
      (Cert.ReferenceIdeal.HostStretches.run m' ρ')
    rw [Cert.ReferenceIdeal.RefValue.finish_eq, (hagree c).1, (hagree c).2.1, (hagree c).2.2.1, (hagree c).2.2.2,
      ← Cert.ReferenceIdeal.aggregate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
